-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x9x256x256 : Shape := ⟨4, ![8, 9, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x9x256x256 : S_.BroadcastsInDim S8x9x256x256 (![] : Fin 0 → Fin S8x9x256x256.rank)
  reducesTo_S8x9x256x256_S_d0_1_2_3 : S8x9x256x256.ReducesTo [0, 1, 2, 3] S_

variable [Facts]

def fn {F : FTy → Type} [FloatOps F] (main_arg0 : FVec F S8x64x256x256 .f32) (main_arg1 : FVec F S8x9x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x9x256x256 .f32 := Host.absf main_arg1
  let main_cst_0 : FVec F S_ .f32 := constant S_ .f32 0x7F800000#32
  let main_v5 : FVec F S8x9x256x256 .f32 := broadcastInDim S8x9x256x256 ![] bcast_S_S8x9x256x256 main_cst_0
  let main_v6 : IVec S8x9x256x256 1 := cmpf .olt main_v4 main_v5
  let main_c_1 : IVec S_ 1 := constantI S_ 1 1#1
  let main_v7 : IVec S_ 1 := (fun x v => Host.reduce IntOp.andi x v reducesTo_S8x9x256x256_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x9x256x256 : Shape := ⟨4, ![8, 9, 256, 256]⟩
abbrev S1x16x256x256 : Shape := ⟨4, ![1, 16, 256, 256]⟩
abbrev S1x9x256x256 : Shape := ⟨4, ![1, 9, 256, 256]⟩
abbrev S16x256x256 : Shape := ⟨3, ![16, 256, 256]⟩
abbrev S1x1x256x256 : Shape := ⟨4, ![1, 1, 256, 256]⟩
abbrev S256x256 : Shape := ⟨2, ![256, 256]⟩
abbrev S256x1 : Shape := ⟨2, ![256, 1]⟩
abbrev S1x256 : Shape := ⟨2, ![1, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S8x9x256x256, .f32⟩
  | .hbm, ⟨2, _⟩ => ⟨S8x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x9x256x256, .f32⟩
  | .local _ .vmem, ⟨3, _⟩ => ⟨S1x9x256x256, .f32⟩
  | .local _ .vmem, ⟨4, _⟩ => ⟨S1x16x256x256, .f32⟩
  | .local _ .vmem, ⟨5, _⟩ => ⟨S1x16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  inb_S1x9x256x256_S1x1x256x256_0_0_0_0 : ∀ a, (![0, 0, 0, 0] : Fin 4 → Nat) a + S1x1x256x256.size a ≤ S1x9x256x256.size a
  h_S1x1x256x256 : 0 < S1x1x256x256.numel
  shapeCasts_S1x1x256x256_S256x256 : S1x1x256x256.ShapeCasts S256x256
  rotates_S16x256x256_d1 : S16x256x256.Rotates 1 none
  rotates_S16x256x256_d2 : S16x256x256.Rotates 2 none
  iota_S256x1_d0_w32 : S256x1.Iotas .tc 32 [0]
  iota_S1x256_d1_w32 : S1x256.Iotas .tc 32 [1]
  broadcasts_S256x1_S256x256 : S256x1.Broadcasts S256x256
  broadcasts_S1x256_S256x256 : S1x256.Broadcasts S256x256
  shapeCasts_S256x256_S1x256x256 : S256x256.ShapeCasts S1x256x256
  broadcasts_S1x256x256_S16x256x256 : S1x256x256.Broadcasts S16x256x256
  inb_S1x9x256x256_S1x1x256x256_0_1_0_0 : ∀ a, (![0, 1, 0, 0] : Fin 4 → Nat) a + S1x1x256x256.size a ≤ S1x9x256x256.size a
  inb_S1x9x256x256_S1x1x256x256_0_2_0_0 : ∀ a, (![0, 2, 0, 0] : Fin 4 → Nat) a + S1x1x256x256.size a ≤ S1x9x256x256.size a
  inb_S1x9x256x256_S1x1x256x256_0_3_0_0 : ∀ a, (![0, 3, 0, 0] : Fin 4 → Nat) a + S1x1x256x256.size a ≤ S1x9x256x256.size a
  inb_S1x9x256x256_S1x1x256x256_0_4_0_0 : ∀ a, (![0, 4, 0, 0] : Fin 4 → Nat) a + S1x1x256x256.size a ≤ S1x9x256x256.size a
  inb_S1x9x256x256_S1x1x256x256_0_5_0_0 : ∀ a, (![0, 5, 0, 0] : Fin 4 → Nat) a + S1x1x256x256.size a ≤ S1x9x256x256.size a
  inb_S1x9x256x256_S1x1x256x256_0_6_0_0 : ∀ a, (![0, 6, 0, 0] : Fin 4 → Nat) a + S1x1x256x256.size a ≤ S1x9x256x256.size a
  inb_S1x9x256x256_S1x1x256x256_0_7_0_0 : ∀ a, (![0, 7, 0, 0] : Fin 4 → Nat) a + S1x1x256x256.size a ≤ S1x9x256x256.size a
  inb_S1x9x256x256_S1x1x256x256_0_8_0_0 : ∀ a, (![0, 8, 0, 0] : Fin 4 → Nat) a + S1x1x256x256.size a ≤ S1x9x256x256.size a
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x64x256x256.size a
  hwx0_0 : ∀ i : grid0.Coords, EltTy.bits .f32 = 32 ∨ (Rect.block (s := S8x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x256x256.size a ≤ S8x9x256x256.size a
  hwx0_1 : ∀ i : grid0.Coords, EltTy.bits .f32 = 32 ∨ (Rect.block (s := S8x9x256x256) S1x9x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x9x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x9x256x256 : Shape := ⟨4, ![8, 9, 256, 256]⟩
abbrev S_ : Shape := ⟨0, ![]⟩
abbrev S8x64x258x258 : Shape := ⟨4, ![8, 64, 258, 258]⟩
abbrev S8x1x256x256 : Shape := ⟨4, ![8, 1, 256, 256]⟩
abbrev S8x256x256 : Shape := ⟨3, ![8, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x9x256x256, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S8x64x256x256, .f32⟩
  | .hbm, ⟨6, _⟩ => ⟨S8x1x256x256, .f32⟩
  | .hbm, ⟨7, _⟩ => ⟨S8x256x256, .f32⟩
  | .hbm, ⟨8, _⟩ => ⟨S8x1x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S8x1x256x256, .f32⟩
  | .hbm, ⟨14, _⟩ => ⟨S8x256x256, .f32⟩
  | .hbm, ⟨15, _⟩ => ⟨S8x1x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S8x64x256x256, .f32⟩
  | .hbm, ⟨20, _⟩ => ⟨S8x1x256x256, .f32⟩
  | .hbm, ⟨21, _⟩ => ⟨S8x256x256, .f32⟩
  | .hbm, ⟨22, _⟩ => ⟨S8x1x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S8x1x256x256, .f32⟩
  | .hbm, ⟨28, _⟩ => ⟨S8x256x256, .f32⟩
  | .hbm, ⟨29, _⟩ => ⟨S8x1x256x256, .f32⟩
  | .hbm, ⟨30, _⟩ => ⟨S8x64x256x256, .f32⟩
  | .hbm, ⟨31, _⟩ => ⟨S8x64x256x256, .f32⟩
  | .hbm, ⟨32, _⟩ => ⟨S8x64x256x256, .f32⟩
  | .hbm, ⟨33, _⟩ => ⟨S8x64x256x256, .f32⟩
  | .hbm, ⟨34, _⟩ => ⟨S8x1x256x256, .f32⟩
  | .hbm, ⟨35, _⟩ => ⟨S8x256x256, .f32⟩
  | .hbm, ⟨36, _⟩ => ⟨S8x1x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | .hbm, ⟨40, _⟩ => ⟨S8x64x256x256, .f32⟩
  | .hbm, ⟨41, _⟩ => ⟨S8x1x256x256, .f32⟩
  | .hbm, ⟨42, _⟩ => ⟨S8x256x256, .f32⟩
  | .hbm, ⟨43, _⟩ => ⟨S8x1x256x256, .f32⟩
  | .hbm, ⟨44, _⟩ => ⟨S8x64x256x256, .f32⟩
  | .hbm, ⟨45, _⟩ => ⟨S8x64x256x256, .f32⟩
  | .hbm, ⟨46, _⟩ => ⟨S8x64x256x256, .f32⟩
  | .hbm, ⟨47, _⟩ => ⟨S8x64x256x256, .f32⟩
  | .hbm, ⟨48, _⟩ => ⟨S8x1x256x256, .f32⟩
  | .hbm, ⟨49, _⟩ => ⟨S8x256x256, .f32⟩
  | .hbm, ⟨50, _⟩ => ⟨S8x1x256x256, .f32⟩
  | .hbm, ⟨51, _⟩ => ⟨S8x64x256x256, .f32⟩
  | .hbm, ⟨52, _⟩ => ⟨S8x64x256x256, .f32⟩
  | .hbm, ⟨53, _⟩ => ⟨S8x64x256x256, .f32⟩
  | .hbm, ⟨54, _⟩ => ⟨S8x64x256x256, .f32⟩
  | .hbm, ⟨55, _⟩ => ⟨S8x1x256x256, .f32⟩
  | .hbm, ⟨56, _⟩ => ⟨S8x256x256, .f32⟩
  | .hbm, ⟨57, _⟩ => ⟨S8x1x256x256, .f32⟩
  | .hbm, ⟨58, _⟩ => ⟨S8x64x256x256, .f32⟩
  | .hbm, ⟨59, _⟩ => ⟨S8x64x256x256, .f32⟩
  | .hbm, ⟨60, _⟩ => ⟨S8x64x256x256, .f32⟩
  | .hbm, ⟨61, _⟩ => ⟨S8x64x256x256, .f32⟩
  | .hbm, ⟨62, _⟩ => ⟨S8x1x256x256, .f32⟩
  | .hbm, ⟨63, _⟩ => ⟨S8x256x256, .f32⟩
  | .hbm, ⟨64, _⟩ => ⟨S8x1x256x256, .f32⟩
  | .hbm, ⟨65, _⟩ => ⟨S8x64x256x256, .f32⟩
  | .hbm, ⟨66, _⟩ => ⟨S8x64x256x256, .f32⟩
  | .hbm, ⟨67, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  slices_S8x64x258x258_S8x64x256x256_0_0_0_0 : S8x64x258x258.Slices ![0, 0, 0, 0] S8x64x256x256
  slices_S8x9x256x256_S8x1x256x256_0_0_0_0 : S8x9x256x256.Slices ![0, 0, 0, 0] S8x1x256x256
  shapeCasts_S8x1x256x256_S8x256x256 : S8x1x256x256.ShapeCasts S8x256x256
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  slices_S8x64x258x258_S8x64x256x256_0_0_0_1 : S8x64x258x258.Slices ![0, 0, 0, 1] S8x64x256x256
  slices_S8x9x256x256_S8x1x256x256_0_1_0_0 : S8x9x256x256.Slices ![0, 1, 0, 0] S8x1x256x256
  slices_S8x64x258x258_S8x64x256x256_0_0_0_2 : S8x64x258x258.Slices ![0, 0, 0, 2] S8x64x256x256
  slices_S8x9x256x256_S8x1x256x256_0_2_0_0 : S8x9x256x256.Slices ![0, 2, 0, 0] S8x1x256x256
  slices_S8x64x258x258_S8x64x256x256_0_0_1_0 : S8x64x258x258.Slices ![0, 0, 1, 0] S8x64x256x256
  slices_S8x9x256x256_S8x1x256x256_0_3_0_0 : S8x9x256x256.Slices ![0, 3, 0, 0] S8x1x256x256
  slices_S8x64x258x258_S8x64x256x256_0_0_1_1 : S8x64x258x258.Slices ![0, 0, 1, 1] S8x64x256x256
  slices_S8x9x256x256_S8x1x256x256_0_4_0_0 : S8x9x256x256.Slices ![0, 4, 0, 0] S8x1x256x256
  slices_S8x64x258x258_S8x64x256x256_0_0_1_2 : S8x64x258x258.Slices ![0, 0, 1, 2] S8x64x256x256
  slices_S8x9x256x256_S8x1x256x256_0_5_0_0 : S8x9x256x256.Slices ![0, 5, 0, 0] S8x1x256x256
  slices_S8x64x258x258_S8x64x256x256_0_0_2_0 : S8x64x258x258.Slices ![0, 0, 2, 0] S8x64x256x256
  slices_S8x9x256x256_S8x1x256x256_0_6_0_0 : S8x9x256x256.Slices ![0, 6, 0, 0] S8x1x256x256
  slices_S8x64x258x258_S8x64x256x256_0_0_2_1 : S8x64x258x258.Slices ![0, 0, 2, 1] S8x64x256x256
  slices_S8x9x256x256_S8x1x256x256_0_7_0_0 : S8x9x256x256.Slices ![0, 7, 0, 0] S8x1x256x256
  slices_S8x64x258x258_S8x64x256x256_0_0_2_2 : S8x64x258x258.Slices ![0, 0, 2, 2] S8x64x256x256
  slices_S8x9x256x256_S8x1x256x256_0_8_0_0 : S8x9x256x256.Slices ![0, 8, 0, 0] S8x1x256x256

variable [Facts₀]

class Facts : Prop extends Facts₀ where

variable [Facts]
-- ==== Proof.Spec.lean ====
/-
  The per-pixel 3×3 convolution with a residual, as one function of a plane and nine weights.

  For a 256×256 plane `P` and the nine weights `A 0 … A 8` of one pixel (h, w), the result at that pixel is
      P h w + ∑_{i, j < 3} pad(P)(h + i, w + j) · A (3 i + j),
  the taps added one after the other in the order (0,0), (0,1), …, (2,2), where `pad(P)` is the plane with a border of
  zeros one entry wide on every side: at padded coordinates (p, q), 0 ≤ p, q < 258, it is `P (p − 1) (q − 1)` when
  1 ≤ p, q ≤ 256 and 0 on the border (`padAt`).

  The one law that joins a kernel that fetches the neighbour by rotating the plane and multiplies the WEIGHT by a 0/1 edge
  mask to a reference that reads a zero-padded plane is `tap_eq`: on the extended reals 0 · x = x · 0 = 0 and x · 1 = x
  for every x, the infinities included, so no finiteness is needed.
-/
import Idealize.ShloMosaic.Lib.ValueIdx

noncomputable section

namespace Cert.Fac

/-- "(p, q) is inside the padded plane's interior": the padded coordinate names an entry of the plane. -/
abbrev Inside (p q : Nat) : Prop := (1 ≤ p ∧ p ≤ 256) ∧ (1 ≤ q ∧ q ≤ 256)

/-- The plane with a one-entry border of zeros, read at padded coordinates. -/
def padAt (P : Fin 256 → Fin 256 → EReal) (p q : Nat) : EReal :=
  if h : Inside p q then P ⟨p - 1, by have := h.1; omega⟩ ⟨q - 1, by have := h.2; omega⟩ else 0

/-- The residual plus the nine taps, added in the order (0,0), (0,1), …, (2,2). -/
def conv9 (P : Fin 256 → Fin 256 → EReal) (A : Fin 9 → EReal) (h w : Fin 256) : EReal :=
  P h w + padAt P (h.val + 0) (w.val + 0) * A 0 + padAt P (h.val + 0) (w.val + 1) * A 1 + padAt P (h.val + 0) (w.val + 2) * A 2
    + padAt P (h.val + 1) (w.val + 0) * A 3 + padAt P (h.val + 1) (w.val + 1) * A 4 + padAt P (h.val + 1) (w.val + 2) * A 5
    + padAt P (h.val + 2) (w.val + 0) * A 6 + padAt P (h.val + 2) (w.val + 1) * A 7 + padAt P (h.val + 2) (w.val + 2) * A 8

/-- The centre tap reads the pixel itself. -/
theorem padAt_center (P : Fin 256 → Fin 256 → EReal) (h w : Fin 256) : padAt P (h.val + 1) (w.val + 1) = P h w := by
  have hh := h.isLt
  have hw := w.isLt
  unfold padAt
  rw [dif_pos ⟨⟨by omega, by omega⟩, ⟨by omega, by omega⟩⟩]
  rfl

/-- Two 0/1 masks multiplied: zero as soon as one of them is. -/
theorem mask_mul (a b : Prop) [Decidable a] [Decidable b] :
    (if a then (0 : EReal) else 1) * (if b then 0 else 1) = if a ∨ b then 0 else 1 := by
  by_cases ha : a <;> by_cases hb : b <;> simp [ha, hb]

/-- ONE TAP, TWO WAYS. `r` is the neighbour as a rotation of the plane finds it — the plane's entry when the neighbour
    exists (`hr`), anything at all when it does not —, `a` the weight, and the 0/1 mask vanishes exactly where the
    neighbour does not exist (`hC`). Then the neighbour times the masked weight is the zero-padded plane's entry times
    the weight: inside the mask is 1; outside both sides are 0, whatever `r` and `a` are. -/
theorem tap_eq (P : Fin 256 → Fin 256 → EReal) (p q : Nat) (r a : EReal) (C : Prop) [Decidable C]
    (hC : ¬C ↔ Inside p q)
    (hr : ∀ h : Inside p q, r = P ⟨p - 1, by have := h.1; omega⟩ ⟨q - 1, by have := h.2; omega⟩) :
    r * (a * (if C then 0 else 1)) = padAt P p q * a := by
  unfold padAt
  by_cases h : Inside p q
  · rw [dif_pos h, if_neg (hC.mpr h), mul_one, hr h]
  · rw [dif_neg h, if_pos (by by_contra hc; exact h (hC.mp hc)), mul_zero, mul_zero, zero_mul]

/-! ## The whole arrays -/

open Idealize.ShloMosaic Idealize.ShloMosaic.ValueIdx

/-- THE RESULT ARRAY as one function of the feature array `x` (8 images, 64 channels, 256 × 256) and of the weights `a`
    (8 images, 9 taps, 256 × 256): at (n, c, h, w), `conv9` of the plane of image n, channel c and of the nine weights of
    image n at the pixel (h, w). -/
def conv (x : (⟨4, ![8, 64, 256, 256]⟩ : Shape).Idx → EReal) (a : (⟨4, ![8, 9, 256, 256]⟩ : Shape).Idx → EReal) :
    (⟨4, ![8, 64, 256, 256]⟩ : Shape).Idx → EReal := fun i =>
  conv9 (fun h w => x (ix4 (⟨(i 0).val, (i 0).isLt⟩ : Fin 8) (⟨(i 1).val, (i 1).isLt⟩ : Fin 64) h w))
    (fun k => a (ix4 (⟨(i 0).val, (i 0).isLt⟩ : Fin 8) k (⟨(i 2).val, (i 2).isLt⟩ : Fin 256) (⟨(i 3).val, (i 3).isLt⟩ : Fin 256)))
    (⟨(i 2).val, (i 2).isLt⟩ : Fin 256) (⟨(i 3).val, (i 3).isLt⟩ : Fin 256)

/-- `conv` at an index whose coordinates are (n, c, h, w). -/
theorem conv_of_coords (x : (⟨4, ![8, 64, 256, 256]⟩ : Shape).Idx → EReal) (a : (⟨4, ![8, 9, 256, 256]⟩ : Shape).Idx → EReal)
    (i : (⟨4, ![8, 64, 256, 256]⟩ : Shape).Idx) (n : Fin 8) (c : Fin 64) (h w : Fin 256)
    (h0 : (i 0).val = n.val) (h1 : (i 1).val = c.val) (h2 : (i 2).val = h.val) (h3 : (i 3).val = w.val) :
    conv x a i = conv9 (fun h w => x (ix4 n c h w)) (fun k => a (ix4 n k h w)) h w := by
  have e0 : (⟨(i 0).val, (i 0).isLt⟩ : Fin 8) = n := Fin.ext h0
  have e1 : (⟨(i 1).val, (i 1).isLt⟩ : Fin 64) = c := Fin.ext h1
  have e2 : (⟨(i 2).val, (i 2).isLt⟩ : Fin 256) = h := Fin.ext h2
  have e3 : (⟨(i 3).val, (i 3).isLt⟩ : Fin 256) = w := Fin.ext h3
  unfold conv
  rw [e0, e1, e2, e3]

end Cert.Fac

end
-- ==== Proof.KernelOps.lean ====
/-
  The operations of the kernel's body read at one element, at the exact values.

  The body holds one (16, 256, 256) block of the feature array and the (9, 256, 256) block of weights of one image.
  A tap's neighbour plane is the block rotated along the rows and/or the columns by 1 or by 255 (= −1 modulo 256); the
  entries a rotation brings around the end are cancelled by a 0/1 mask built from `iota` compared with 1 (first row or
  column) or with 255 (last row or column), and the mask is multiplied into the (256, 256) plane of weights, which is then
  laid over the 16 channels. This module reads each of those operations at an index given by coordinates:
  the rotations (`rotH_apply`, `rotW_apply`), the four edge masks (`rowLo_apply`, `rowHi_apply`, `colLo_apply`,
  `colHi_apply`), a column / a row laid over the plane (`bcastCol_apply`, `bcastRow_apply`), a plane laid over the
  channels (`bcastPlane_apply`), the unit-axis casts of a block (`blockCast_apply`, `planeCast_apply`, `storeCast_apply`),
  and with them ONE TAP (`tap_apply`): the rotated block times the masked weights is the zero-padded plane's entry times
  the weight (Spec.lean `tap_eq`).
-/
import proofs.«159849_j16269336117256_2_alg».proof.Proof.Gen.KernelIdeal.Skeleton
import proofs.«159849_j16269336117256_2_alg».proof.Proof.Spec
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Fac

/-! ## The two float literals -/

theorem lit_zero : Scalar.ofBits (F := Ideal) .f32 0x00000000#32 = (0 : EReal) := Ideal.ofBits_zero_f32

theorem lit_one : Scalar.ofBits (F := Ideal) .f32 0x3F800000#32 = (1 : EReal) := by
  show Ideal.ofBits .f32 0x3F800000#32 = 1
  simp [Ideal.ofBits, Ideal.ieee, -EReal.coe_mul]; norm_num

/-! ## Rotations -/

/-- The block rotated along the rows by `s` (modulo 256): row `h` of the result is row `h − s` of the block, around the end. -/
theorem rotH_apply (sb : BitVec 32) (s : Nat) (hs : sb.toNat % 256 = s) (v : FVec Ideal S16x256x256 .f32)
    (c : Fin 16) (h w : Fin 256) :
    dynamicRotate 1 sb none v rotates_S16x256x256_d1 (ix3 c h w)
      = v (ix3 c ⟨(h.val + 256 - s) % 256, Nat.mod_lt _ (by norm_num)⟩ w) := by
  refine dynamicRotate_apply 1 sb v rotates_S16x256x256_d1 _ _ (fun b => ?_)
  match b with
  | ⟨0, _⟩ => rfl
  | ⟨1, _⟩ => show (h.val + 256 - s) % 256 = (h.val + 256 - sb.toNat % 256) % 256; rw [hs]
  | ⟨2, _⟩ => rfl

/-- The block rotated along the columns by `s` (modulo 256). -/
theorem rotW_apply (sb : BitVec 32) (s : Nat) (hs : sb.toNat % 256 = s) (v : FVec Ideal S16x256x256 .f32)
    (c : Fin 16) (h w : Fin 256) :
    dynamicRotate 2 sb none v rotates_S16x256x256_d2 (ix3 c h w)
      = v (ix3 c h ⟨(w.val + 256 - s) % 256, Nat.mod_lt _ (by norm_num)⟩) := by
  refine dynamicRotate_apply 2 sb v rotates_S16x256x256_d2 _ _ (fun b => ?_)
  match b with
  | ⟨0, _⟩ => rfl
  | ⟨1, _⟩ => rfl
  | ⟨2, _⟩ => show (w.val + 256 - s) % 256 = (w.val + 256 - sb.toNat % 256) % 256; rw [hs]

/-! ## The edge masks -/

/-- Row `h` is the first row: the signed comparison of the row number with 1, decided over the 256 rows. -/
theorem slt_one_iff : ∀ h : Fin 256, IntOp.cmpi .slt (BitVec.ofNat 32 h.val) 1#32 = 1#1 ↔ h.val < 1 := by decide +kernel

/-- Row `h` is the last row: the signed comparison of the row number with 255, decided over the 256 rows. -/
theorem sge_255_iff : ∀ h : Fin 256, IntOp.cmpi .sge (BitVec.ofNat 32 h.val) 255#32 = 1#1 ↔ 255 ≤ h.val := by decide +kernel

/-- A select between the splats of 0.0 and 1.0 on a condition decided at the index. -/
theorem select01_apply {s : Shape} (cnd : IVec s 1) (i : s.Idx) (C : Prop) [Decidable C] (hc : cnd i = 1#1 ↔ C) :
    (select cnd (broadcast s (Scalar.ofBits (F := Ideal) .f32 0x00000000#32))
        (broadcast s (Scalar.ofBits (F := Ideal) .f32 0x3F800000#32)) : FVec Ideal s .f32) i
      = if C then (0 : EReal) else 1 := by
  show Scalar.select (cnd i) (Scalar.ofBits (F := Ideal) .f32 0x00000000#32) (Scalar.ofBits (F := Ideal) .f32 0x3F800000#32) = _
  unfold Scalar.select
  rw [lit_zero, lit_one]
  exact if_congr hc rfl rfl

/-- The mask of the first row, as a (256, 1) column: 0 on row 0, 1 elsewhere. -/
theorem rowLo_apply (h : Fin 256) (u : Fin 1) :
    (select (cmpi .slt (iota .tc S256x1 32 [0] iota_S256x1_d0_w32) (broadcast S256x1 1#32))
        (broadcast S256x1 (Scalar.ofBits (F := Ideal) .f32 0x00000000#32))
        (broadcast S256x1 (Scalar.ofBits (F := Ideal) .f32 0x3F800000#32)) : FVec Ideal S256x1 .f32) (ix2 h u)
      = if h.val < 1 then (0 : EReal) else 1 := by
  refine select01_apply _ _ _ ?_
  show IntOp.cmpi .slt (iota .tc S256x1 32 [0] iota_S256x1_d0_w32 (ix2 h u)) 1#32 = 1#1 ↔ _
  rw [iota_single_apply]
  exact slt_one_iff h

/-- The mask of the last row, as a (256, 1) column: 0 on row 255, 1 elsewhere. -/
theorem rowHi_apply (h : Fin 256) (u : Fin 1) :
    (select (cmpi .sge (iota .tc S256x1 32 [0] iota_S256x1_d0_w32) (broadcast S256x1 255#32))
        (broadcast S256x1 (Scalar.ofBits (F := Ideal) .f32 0x00000000#32))
        (broadcast S256x1 (Scalar.ofBits (F := Ideal) .f32 0x3F800000#32)) : FVec Ideal S256x1 .f32) (ix2 h u)
      = if 255 ≤ h.val then (0 : EReal) else 1 := by
  refine select01_apply _ _ _ ?_
  show IntOp.cmpi .sge (iota .tc S256x1 32 [0] iota_S256x1_d0_w32 (ix2 h u)) 255#32 = 1#1 ↔ _
  rw [iota_single_apply]
  exact sge_255_iff h

/-- The mask of the first column, as a (1, 256) row: 0 on column 0, 1 elsewhere. -/
theorem colLo_apply (u : Fin 1) (w : Fin 256) :
    (select (cmpi .slt (iota .tc S1x256 32 [1] iota_S1x256_d1_w32) (broadcast S1x256 1#32))
        (broadcast S1x256 (Scalar.ofBits (F := Ideal) .f32 0x00000000#32))
        (broadcast S1x256 (Scalar.ofBits (F := Ideal) .f32 0x3F800000#32)) : FVec Ideal S1x256 .f32) (ix2 u w)
      = if w.val < 1 then (0 : EReal) else 1 := by
  refine select01_apply _ _ _ ?_
  show IntOp.cmpi .slt (iota .tc S1x256 32 [1] iota_S1x256_d1_w32 (ix2 u w)) 1#32 = 1#1 ↔ _
  rw [iota_single_apply]
  exact slt_one_iff w

/-- The mask of the last column, as a (1, 256) row: 0 on column 255, 1 elsewhere. -/
theorem colHi_apply (u : Fin 1) (w : Fin 256) :
    (select (cmpi .sge (iota .tc S1x256 32 [1] iota_S1x256_d1_w32) (broadcast S1x256 255#32))
        (broadcast S1x256 (Scalar.ofBits (F := Ideal) .f32 0x00000000#32))
        (broadcast S1x256 (Scalar.ofBits (F := Ideal) .f32 0x3F800000#32)) : FVec Ideal S1x256 .f32) (ix2 u w)
      = if 255 ≤ w.val then (0 : EReal) else 1 := by
  refine select01_apply _ _ _ ?_
  show IntOp.cmpi .sge (iota .tc S1x256 32 [1] iota_S1x256_d1_w32 (ix2 u w)) 255#32 = 1#1 ↔ _
  rw [iota_single_apply]
  exact sge_255_iff w

/-! ## Broadcasts and unit-axis casts -/

/-- A (256, 1) column laid over the (256, 256) plane: entry (h, w) is the column's entry h. -/
theorem bcastCol_apply (v : FVec Ideal S256x1 .f32) (h w : Fin 256) :
    broadcastTo S256x256 v broadcasts_S256x1_S256x256 (ix2 h w) = v (ix2 h 0) := by
  refine broadcastTo_apply v broadcasts_S256x1_S256x256 _ _ (fun a => ?_)
  match a with
  | ⟨0, _⟩ => rfl
  | ⟨1, _⟩ => rfl

/-- A (1, 256) row laid over the (256, 256) plane: entry (h, w) is the row's entry w. -/
theorem bcastRow_apply (v : FVec Ideal S1x256 .f32) (h w : Fin 256) :
    broadcastTo S256x256 v broadcasts_S1x256_S256x256 (ix2 h w) = v (ix2 0 w) := by
  refine broadcastTo_apply v broadcasts_S1x256_S256x256 _ _ (fun a => ?_)
  match a with
  | ⟨0, _⟩ => rfl
  | ⟨1, _⟩ => rfl

/-- A (256, 256) plane given a unit channel axis and laid over the 16 channels: entry (c, h, w) is the plane's (h, w). -/
theorem bcastPlane_apply (v : FVec Ideal S256x256 .f32) (c : Fin 16) (h w : Fin 256) :
    broadcastTo S16x256x256 (shapeCast S1x256x256 v shapeCasts_S256x256_S1x256x256) broadcasts_S1x256x256_S16x256x256 (ix3 c h w)
      = v (ix2 h w) := by
  refine (broadcastTo_apply _ broadcasts_S1x256x256_S16x256x256 _ (ix3 (0 : Fin 1) h w) (fun a => ?_)).trans ?_
  · match a with
    | ⟨0, _⟩ => rfl
    | ⟨1, _⟩ => rfl
    | ⟨2, _⟩ => rfl
  · refine shapeCast_apply v shapeCasts_S256x256_S1x256x256 _ _ ?_
    rw [Shape.rowMajor_val_two, Shape.rowMajor_val_three]
    show h.val * 256 + w.val = ((0 : Fin 1).val * 256 + h.val) * 256 + w.val
    simp

/-- The (1, 16, 256, 256) block with its unit axis dropped: entry (c, h, w) is the block's (0, c, h, w). -/
theorem blockCast_apply (x : Vec Ideal S1x16x256x256 .f32) (c : Fin 16) (h w : Fin 256) :
    shapeCast S16x256x256 x shapeCasts_S1x16x256x256_S16x256x256 (ix3 c h w) = x (ix4 0 c h w) := by
  refine shapeCast_apply x shapeCasts_S1x16x256x256_S16x256x256 _ _ ?_
  rw [Shape.rowMajor_val_three, Shape.rowMajor_val_four]
  show (((0 : Fin 1).val * 16 + c.val) * 256 + h.val) * 256 + w.val = (c.val * 256 + h.val) * 256 + w.val
  simp

/-- A (1, 1, 256, 256) plane of weights with its two unit axes dropped: entry (h, w) is the plane's (0, 0, h, w). -/
theorem planeCast_apply (x : Vec Ideal S1x1x256x256 .f32) (h w : Fin 256) :
    shapeCast S256x256 x shapeCasts_S1x1x256x256_S256x256 (ix2 h w) = x (ix4 0 0 h w) := by
  refine shapeCast_apply x shapeCasts_S1x1x256x256_S256x256 _ _ ?_
  rw [Shape.rowMajor_val_two, Shape.rowMajor_val_four]
  show (((0 : Fin 1).val * 1 + (0 : Fin 1).val) * 256 + h.val) * 256 + w.val = h.val * 256 + w.val
  simp

/-- The (16, 256, 256) result given back its unit axis for the store: entry (0, c, h, w) is the result's (c, h, w). -/
theorem storeCast_apply (v : FVec Ideal S16x256x256 .f32) (u : Fin 1) (c : Fin 16) (h w : Fin 256) :
    shapeCast S1x16x256x256 v shapeCasts_S16x256x256_S1x16x256x256 (ix4 u c h w) = v (ix3 c h w) := by
  refine shapeCast_apply v shapeCasts_S16x256x256_S1x16x256x256 _ _ ?_
  rw [Shape.rowMajor_val_three, Shape.rowMajor_val_four]
  have hu : u.val = 0 := by have := u.isLt; omega
  show (c.val * 256 + h.val) * 256 + w.val = ((u.val * 16 + c.val) * 256 + h.val) * 256 + w.val
  rw [hu]; simp

end Cert.KernelIdeal.Hand

end
-- ==== Proof.KernelBlock.lean ====
/-
  What the kernel's body leaves in its output block, element by element.

  The body's result is built up tap by tap: starting from the block itself (the residual), each of the nine taps adds
  (the block rotated to bring the neighbour under the pixel) × (that tap's plane of weights × its 0/1 edge mask), the
  centre tap with no rotation and no mask. Read at the element (c, h, w) of the block, each such term is the zero-padded
  plane's entry at (h + i, w + j) times the weight (`tap_apply`, from Spec.lean's `tap_eq`): where the neighbour exists
  the mask is 1 and the rotation reads it; where it does not the mask is 0 and both sides vanish. The printed body is cut
  into five stretches; one lemma per stretch says what it adds to the sum so far (`stretch1_apply` … `stretch5_apply`),
  and `out_apply` strings them together: the output block at (0, c, h, w) is `conv9` of channel c's plane of the feature
  block and of the nine weights of the pixel (h, w).
-/
import proofs.«159849_j16269336117256_2_alg».proof.Proof.KernelOps
import proofs.«159849_j16269336117256_2_alg».proof.Proof.Gen.KernelIdeal.Frame

noncomputable section

namespace Cert.KernelIdeal.Hand

open Cert.KernelIdeal Cert.KernelIdeal.Gen Idealize.ShloMosaic Idealize.ShloMosaic.ValueIdx Cert.Fac

/-- ONE TAP at the element (c, h, w): the rotated block `rot` times the plane of weights `l` with the mask folded in,
    the product laid over the channels, is the zero-padded plane of channel c at (p, q) times the weight — given that the
    mask at (h, w) is 0 exactly where (p, q) falls on the border (`hmask`, `hC`) and that inside the rotation reads the
    plane's entry (p − 1, q − 1) (`hrot`). -/
theorem tap_apply (v1 rot : FVec Ideal S16x256x256 .f32) (l : Vec Ideal S1x1x256x256 .f32) (mask : FVec Ideal S256x256 .f32)
    (c : Fin 16) (h w : Fin 256) (p q : Nat) (C : Prop) [Decidable C]
    (hmask : mask (ix2 h w) = if C then (0 : EReal) else 1)
    (hC : ¬C ↔ Inside p q)
    (hrot : ∀ hin : Inside p q, rot (ix3 c h w)
      = v1 (ix3 c ⟨p - 1, by have := hin.1; omega⟩ ⟨q - 1, by have := hin.2; omega⟩)) :
    mulf rot (broadcastTo S16x256x256 (shapeCast S1x256x256 (mulf (shapeCast S256x256 l shapeCasts_S1x1x256x256_S256x256) mask)
        shapeCasts_S256x256_S1x256x256) broadcasts_S1x256x256_S16x256x256) (ix3 c h w)
      = padAt (fun h w => v1 (ix3 c h w)) p q * l (ix4 0 0 h w) := by
  rw [mulf_apply, bcastPlane_apply, mulf_apply, hmask, planeCast_apply]
  exact tap_eq (fun h w => v1 (ix3 c h w)) p q _ _ C hC hrot

/-- One element of the block under two spellings of its row and column. -/
theorem at_congr (v : FVec Ideal S16x256x256 .f32) (c : Fin 16) {h h' w w' : Fin 256} (eh : h.val = h'.val) (ew : w.val = w'.val) :
    v (ix3 c h w) = v (ix3 c h' w') := by
  rw [Fin.ext eh, Fin.ext ew]

/-- THE FIRST STRETCH: the residual plus the tap (0, 0) — the block rotated down and right by one, the first row and the
    first column masked. -/
theorem stretch1_apply (x0 : Vec Ideal S1x16x256x256 .f32) (l1 : Vec Ideal S1x1x256x256 .f32) (c : Fin 16) (h w : Fin 256) :
    k0_pay3 x0 l1 (ix3 c h w)
      = k0_pay2 x0 (ix3 c h w) + padAt (fun h w => k0_pay2 x0 (ix3 c h w)) (h.val + 0) (w.val + 0) * l1 (ix4 0 0 h w) := by
  have hh := h.isLt
  have hw := w.isLt
  unfold k0_pay3
  dsimp only
  rw [addf_apply]
  refine congrArg (k0_pay2 x0 (ix3 c h w) + ·) ?_
  refine tap_apply (k0_pay2 x0) _ l1 _ c h w _ _ (h.val < 1 ∨ w.val < 1) ?_ ?_ ?_
  · rw [mulf_apply, bcastCol_apply, bcastRow_apply, rowLo_apply, colLo_apply, mask_mul]
  · unfold Inside; omega
  · intro hin
    obtain ⟨⟨a1, a2⟩, ⟨b1, b2⟩⟩ := hin
    rw [rotW_apply 1#32 1 rfl, rotH_apply 1#32 1 rfl]
    exact at_congr _ c (by show (h.val + 256 - 1) % 256 = h.val + 0 - 1; omega) (by show (w.val + 256 - 1) % 256 = w.val + 0 - 1; omega)

/-- THE SECOND STRETCH adds the taps (0, 1) — rotated down by one, the first row masked — and (0, 2) — rotated down by one
    and left by one, the first row and the last column masked. -/
theorem stretch2_apply (x0 : Vec Ideal S1x16x256x256 .f32) (acc : FVec Ideal S16x256x256 .f32) (l2 l3 : Vec Ideal S1x1x256x256 .f32)
    (c : Fin 16) (h w : Fin 256) :
    k0_pay9 (k0_pay2 x0) acc (k0_pay4 l2) (k0_pay5 x0) k0_pay6 (k0_pay7 (F := Ideal)) (k0_pay8 (F := Ideal)) l3 (ix3 c h w)
      = acc (ix3 c h w) + padAt (fun h w => k0_pay2 x0 (ix3 c h w)) (h.val + 0) (w.val + 1) * l2 (ix4 0 0 h w)
          + padAt (fun h w => k0_pay2 x0 (ix3 c h w)) (h.val + 0) (w.val + 2) * l3 (ix4 0 0 h w) := by
  have hh := h.isLt
  have hw := w.isLt
  unfold k0_pay9 k0_pay4 k0_pay5 k0_pay6 k0_pay7 k0_pay8
  dsimp only
  rw [addf_apply, addf_apply]
  refine congrArg₂ (· + ·) (congrArg (acc (ix3 c h w) + ·) ?_) ?_
  · refine tap_apply (k0_pay2 x0) _ l2 _ c h w _ _ (h.val < 1) ?_ ?_ ?_
    · rw [bcastCol_apply, rowLo_apply]
    · unfold Inside; omega
    · intro hin
      obtain ⟨⟨a1, a2⟩, ⟨b1, b2⟩⟩ := hin
      rw [rotH_apply 1#32 1 rfl]
      exact at_congr _ c (by show (h.val + 256 - 1) % 256 = h.val + 0 - 1; omega) (by show w.val = w.val + 1 - 1; omega)
  · refine tap_apply (k0_pay2 x0) _ l3 _ c h w _ _ (h.val < 1 ∨ 255 ≤ w.val) ?_ ?_ ?_
    · rw [mulf_apply, bcastCol_apply, bcastRow_apply, rowLo_apply, colHi_apply, mask_mul]
    · unfold Inside; omega
    · intro hin
      obtain ⟨⟨a1, a2⟩, ⟨b1, b2⟩⟩ := hin
      rw [rotW_apply 255#32 255 rfl, rotH_apply 1#32 1 rfl]
      exact at_congr _ c (by show (h.val + 256 - 1) % 256 = h.val + 0 - 1; omega) (by show (w.val + 256 - 255) % 256 = w.val + 2 - 1; omega)

/-- THE THIRD STRETCH adds the taps (1, 0) — rotated right by one, the first column masked —, (1, 1) — the block itself
    times the weights — and (1, 2) — rotated left by one, the last column masked. -/
theorem stretch3_apply (v1 acc : FVec Ideal S16x256x256 .f32) (l4 l5 l6 : Vec Ideal S1x1x256x256 .f32) (c : Fin 16) (h w : Fin 256) :
    k0_pay13 v1 acc (k0_pay10 l4) (k0_pay11 v1) (k0_pay12 (F := Ideal)) l5 l6 (ix3 c h w)
      = acc (ix3 c h w) + padAt (fun h w => v1 (ix3 c h w)) (h.val + 1) (w.val + 0) * l4 (ix4 0 0 h w)
          + padAt (fun h w => v1 (ix3 c h w)) (h.val + 1) (w.val + 1) * l5 (ix4 0 0 h w)
          + padAt (fun h w => v1 (ix3 c h w)) (h.val + 1) (w.val + 2) * l6 (ix4 0 0 h w) := by
  have hh := h.isLt
  have hw := w.isLt
  unfold k0_pay13 k0_pay10 k0_pay11 k0_pay12
  dsimp only
  rw [addf_apply, addf_apply, addf_apply]
  refine congrArg₂ (· + ·) (congrArg₂ (· + ·) (congrArg (acc (ix3 c h w) + ·) ?_) ?_) ?_
  · refine tap_apply v1 _ l4 _ c h w _ _ (w.val < 1) ?_ ?_ ?_
    · rw [bcastRow_apply, colLo_apply]
    · unfold Inside; omega
    · intro hin
      obtain ⟨⟨a1, a2⟩, ⟨b1, b2⟩⟩ := hin
      rw [rotW_apply 1#32 1 rfl]
      exact at_congr _ c (by show h.val = h.val + 1 - 1; omega) (by show (w.val + 256 - 1) % 256 = w.val + 0 - 1; omega)
  · rw [mulf_apply, bcastPlane_apply, planeCast_apply, padAt_center (fun h w => v1 (ix3 c h w)) h w]
  · refine tap_apply v1 _ l6 _ c h w _ _ (255 ≤ w.val) ?_ ?_ ?_
    · rw [bcastRow_apply, colHi_apply]
    · unfold Inside; omega
    · intro hin
      obtain ⟨⟨a1, a2⟩, ⟨b1, b2⟩⟩ := hin
      rw [rotW_apply 255#32 255 rfl]
      exact at_congr _ c (by show h.val = h.val + 1 - 1; omega) (by show (w.val + 256 - 255) % 256 = w.val + 2 - 1; omega)

/-- THE FOURTH STRETCH adds the taps (2, 0) — rotated up by one and right by one, the last row and the first column
    masked — and (2, 1) — rotated up by one, the last row masked. -/
theorem stretch4_apply (v1 acc : FVec Ideal S16x256x256 .f32) (l7 l8 : Vec Ideal S1x1x256x256 .f32) (c : Fin 16) (h w : Fin 256) :
    k0_pay17 v1 acc (k0_pay14 l7) (k0_pay15 v1) (k0_pay16 (F := Ideal)) (iota .tc S1x256 32 [1] iota_S1x256_d1_w32) 1#32 l8 (ix3 c h w)
      = acc (ix3 c h w) + padAt (fun h w => v1 (ix3 c h w)) (h.val + 2) (w.val + 0) * l7 (ix4 0 0 h w)
          + padAt (fun h w => v1 (ix3 c h w)) (h.val + 2) (w.val + 1) * l8 (ix4 0 0 h w) := by
  have hh := h.isLt
  have hw := w.isLt
  unfold k0_pay17 k0_pay14 k0_pay15 k0_pay16
  dsimp only
  rw [addf_apply, addf_apply]
  refine congrArg₂ (· + ·) (congrArg (acc (ix3 c h w) + ·) ?_) ?_
  · refine tap_apply v1 _ l7 _ c h w _ _ (255 ≤ h.val ∨ w.val < 1) ?_ ?_ ?_
    · rw [mulf_apply, bcastCol_apply, bcastRow_apply, rowHi_apply, colLo_apply, mask_mul]
    · unfold Inside; omega
    · intro hin
      obtain ⟨⟨a1, a2⟩, ⟨b1, b2⟩⟩ := hin
      rw [rotW_apply 1#32 1 rfl, rotH_apply 255#32 255 rfl]
      exact at_congr _ c (by show (h.val + 256 - 255) % 256 = h.val + 2 - 1; omega) (by show (w.val + 256 - 1) % 256 = w.val + 0 - 1; omega)
  · refine tap_apply v1 _ l8 _ c h w _ _ (255 ≤ h.val) ?_ ?_ ?_
    · rw [bcastCol_apply, rowHi_apply]
    · unfold Inside; omega
    · intro hin
      obtain ⟨⟨a1, a2⟩, ⟨b1, b2⟩⟩ := hin
      rw [rotH_apply 255#32 255 rfl]
      exact at_congr _ c (by show (h.val + 256 - 255) % 256 = h.val + 2 - 1; omega) (by show w.val = w.val + 1 - 1; omega)

/-- THE LAST STRETCH adds the tap (2, 2) — rotated up by one and left by one, the last row and the last column masked —
    and gives the result back its unit axis for the store. -/
theorem stretch5_apply (v1 acc : FVec Ideal S16x256x256 .f32) (l9 : Vec Ideal S1x1x256x256 .f32) (u : Fin 1) (c : Fin 16) (h w : Fin 256) :
    k0_pay1 acc (k0_pay18 l9) (k0_pay19 v1) (k0_pay20 (F := Ideal)) (iota .tc S1x256 32 [1] iota_S1x256_d1_w32) k0_pay21 (ix4 u c h w)
      = acc (ix3 c h w) + padAt (fun h w => v1 (ix3 c h w)) (h.val + 2) (w.val + 2) * l9 (ix4 0 0 h w) := by
  have hh := h.isLt
  have hw := w.isLt
  unfold k0_pay1 k0_pay18 k0_pay19 k0_pay20 k0_pay21
  dsimp only
  rw [storeCast_apply, addf_apply]
  refine congrArg (acc (ix3 c h w) + ·) ?_
  refine tap_apply v1 _ l9 _ c h w _ _ (255 ≤ h.val ∨ 255 ≤ w.val) ?_ ?_ ?_
  · rw [mulf_apply, bcastCol_apply, bcastRow_apply, rowHi_apply, colHi_apply, mask_mul]
  · unfold Inside; omega
  · intro hin
    obtain ⟨⟨a1, a2⟩, ⟨b1, b2⟩⟩ := hin
    rw [rotW_apply 255#32 255 rfl, rotH_apply 255#32 255 rfl]
    exact at_congr _ c (by show (h.val + 256 - 255) % 256 = h.val + 2 - 1; omega) (by show (w.val + 256 - 255) % 256 = w.val + 2 - 1; omega)

/-! ## The whole body -/

theorem hz4 : (![0, 0, 0, 0] : Fin 4 → Nat) = fun _ => 0 := funext fun a => by fin_cases a <;> rfl

/-- A load of the weights' plane `k` out of the (1, 9, 256, 256) block — the unit rectangle at offsets (0, k, 0, 0) — read
    at (0, 0, h, w) is the block's entry (0, k, h, w). -/
theorem ldPlane_apply (x1 : Vec Ideal S1x9x256x256 .f32) (off : Fin 4 → Nat) (inb : ∀ a, off a + S1x1x256x256.size a ≤ S1x9x256x256.size a)
    (k : Fin 9) (h0 : off 0 = 0) (h1 : off 1 = k.val) (h2 : off 2 = 0) (h3 : off 3 = 0) (h w : Fin 256) :
    View.ld x1 (Rect.unit (s := S1x9x256x256) off S1x1x256x256.size inb) (ix4 (0 : Fin 1) (0 : Fin 1) h w) = x1 (ix4 0 k h w) := by
  show x1 _ = x1 _
  refine congrArg x1 (funext fun a => Fin.ext ?_)
  match a with
  | ⟨0, _⟩ => show off 0 + 1 * 0 = 0; rw [h0]
  | ⟨1, _⟩ => show off 1 + 1 * 0 = k.val; rw [h1]; omega
  | ⟨2, _⟩ => show off 2 + 1 * h.val = h.val; rw [h2]; omega
  | ⟨3, _⟩ => show off 3 + 1 * w.val = w.val; rw [h3]; omega

/-- WHAT THE BODY LEAVES in its output block, at (0, c, h, w): the residual-plus-nine-taps function of channel c's plane
    of the feature block and of the pixel's nine weights. -/
theorem out_apply (x0 : Vec Ideal S1x16x256x256 .f32) (x1 : Vec Ideal S1x9x256x256 .f32) (u : Fin 1) (c : Fin 16) (h w : Fin 256) :
    out0_2 x0 x1 (ix4 u c h w) = conv9 (fun h w => x0 (ix4 0 c h w)) (fun k => x1 (ix4 0 k h w)) h w := by
  have hP : (fun h w : Fin 256 => k0_pay2 x0 (ix3 c h w)) = fun h w => x0 (ix4 0 c h w) :=
    funext fun h => funext fun w => blockCast_apply x0 c h w
  have e0 : k0_pay2 x0 (ix3 c h w) = x0 (ix4 0 c h w) := blockCast_apply x0 c h w
  have e1 : View.ld x1 r0_1 (ix4 (0 : Fin 1) (0 : Fin 1) h w) = x1 (ix4 0 0 h w) := ldPlane_apply x1 _ _ 0 rfl rfl rfl rfl h w
  have e2 : View.ld x1 r0_2 (ix4 (0 : Fin 1) (0 : Fin 1) h w) = x1 (ix4 0 1 h w) := ldPlane_apply x1 _ _ 1 rfl rfl rfl rfl h w
  have e3 : View.ld x1 r0_3 (ix4 (0 : Fin 1) (0 : Fin 1) h w) = x1 (ix4 0 2 h w) := ldPlane_apply x1 _ _ 2 rfl rfl rfl rfl h w
  have e4 : View.ld x1 r0_4 (ix4 (0 : Fin 1) (0 : Fin 1) h w) = x1 (ix4 0 3 h w) := ldPlane_apply x1 _ _ 3 rfl rfl rfl rfl h w
  have e5 : View.ld x1 r0_5 (ix4 (0 : Fin 1) (0 : Fin 1) h w) = x1 (ix4 0 4 h w) := ldPlane_apply x1 _ _ 4 rfl rfl rfl rfl h w
  have e6 : View.ld x1 r0_6 (ix4 (0 : Fin 1) (0 : Fin 1) h w) = x1 (ix4 0 5 h w) := ldPlane_apply x1 _ _ 5 rfl rfl rfl rfl h w
  have e7 : View.ld x1 r0_7 (ix4 (0 : Fin 1) (0 : Fin 1) h w) = x1 (ix4 0 6 h w) := ldPlane_apply x1 _ _ 6 rfl rfl rfl rfl h w
  have e8 : View.ld x1 r0_8 (ix4 (0 : Fin 1) (0 : Fin 1) h w) = x1 (ix4 0 7 h w) := ldPlane_apply x1 _ _ 7 rfl rfl rfl rfl h w
  have e9 : View.ld x1 r0_9 (ix4 (0 : Fin 1) (0 : Fin 1) h w) = x1 (ix4 0 8 h w) := ldPlane_apply x1 _ _ 8 rfl rfl rfl rfl h w
  unfold out0_2
  rw [View.canon_unit_zero hz4]
  simp only [View.ld_unit_zero (S := S1x16x256x256) hz4]
  rw [stretch5_apply, stretch4_apply, stretch3_apply, stretch2_apply, stretch1_apply, hP, e1, e2, e3, e4, e5, e6, e7, e8, e9, e0]
  rfl

end Cert.KernelIdeal.Hand

end
-- ==== Proof.KernelArray.lean ====
/-
  From blocks to the array: the kernel's result array after the run.

  The grid has 8 × 4 points; point (n, b) holds channels 16 b … 16 b + 15 of image n of the feature array (all rows and
  columns), the nine planes of weights of image n, and writes back the same channels of image n of the result. Since
  every tap of a pixel stays inside its own plane, what point (n, b) writes back is exactly block (n, b) of the one
  whole-array function `conv` of the two argument arrays (`flushed_eq`: the body's block function `out_apply`, with each
  input block read where the output block's rectangle says), the 32 blocks cover the result array (`cover`), and so the
  array ends holding `conv` of the arguments (`final`, `run`).
-/
import proofs.«159849_j16269336117256_2_alg».proof.Proof.KernelBlock
import proofs.«159849_j16269336117256_2_alg».proof.Proof.Gen.KernelIdeal.Value
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.Fac
open Idealize.ShloMosaic.Pipeline (Dat)

variable (m : (ℓ : Loc nD τ sig) → Buf (Elt Ideal) ℓ) (ρ : Dev nD → PrngReg)

/-- The three index maps over the grid, decided once: the feature window and the result window name the same block
    (image, channel block, 0, 0), the weights window names (image, 0, 0, 0), and the block indices stay in range. -/
theorem idx_facts : ∀ t : Fin cfg0.N,
    (win0_0.index t (0 : Fin 4) = win0_2.index t (0 : Fin 4) ∧ win0_0.index t (1 : Fin 4) = win0_2.index t (1 : Fin 4)
      ∧ win0_0.index t (2 : Fin 4) = 0 ∧ win0_0.index t (3 : Fin 4) = 0)
    ∧ (win0_1.index t (0 : Fin 4) = win0_2.index t (0 : Fin 4) ∧ win0_1.index t (1 : Fin 4) = 0
      ∧ win0_1.index t (2 : Fin 4) = 0 ∧ win0_1.index t (3 : Fin 4) = 0)
    ∧ (win0_2.index t (0 : Fin 4) < 8 ∧ win0_2.index t (1 : Fin 4) < 4
      ∧ win0_2.index t (2 : Fin 4) = 0 ∧ win0_2.index t (3 : Fin 4) = 0) :=
  (by decide +kernel : ∀ t : Fin grid0.N, _)

/-- Every (image, channel block) is some grid point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- The feature window's block at point `t`, read at `y`, is the feature array at the index whose coordinates are the
    block's index times the block's extent plus `y`'s. -/
theorem iblk0_apply (c : Dev nD) (t : Fin cfg0.N) (y : S1x16x256x256.Idx) (k : S8x64x256x256.Idx)
    (hk : ∀ a : Fin 4, (k a).val = win0_0.index t a * S1x16x256x256.size a + (y a).val) :
    (iblk m c 0 t : Vec Ideal S1x16x256x256 .f32) y = (V m c main_arg0 : S8x64x256x256.Idx → Elt Ideal .f32) k := by
  unfold iblk
  rw [View.read_apply]
  show V m c main_arg0 _ = V m c main_arg0 _
  refine congrArg (V m c main_arg0) (funext fun a => Fin.ext ?_)
  match a with
  | ⟨0, _⟩ => show win0_0.index t 0 * 1 + 1 * (y 0).val = (k 0).val; rw [hk 0]; show _ = win0_0.index t 0 * 1 + (y 0).val; omega
  | ⟨1, _⟩ => show win0_0.index t 1 * 16 + 1 * (y 1).val = (k 1).val; rw [hk 1]; show _ = win0_0.index t 1 * 16 + (y 1).val; omega
  | ⟨2, _⟩ => show win0_0.index t 2 * 256 + 1 * (y 2).val = (k 2).val; rw [hk 2]; show _ = win0_0.index t 2 * 256 + (y 2).val; omega
  | ⟨3, _⟩ => show win0_0.index t 3 * 256 + 1 * (y 3).val = (k 3).val; rw [hk 3]; show _ = win0_0.index t 3 * 256 + (y 3).val; omega

/-- The weights window's block at point `t`, read at `y`, likewise. -/
theorem iblk1_apply (c : Dev nD) (t : Fin cfg0.N) (y : S1x9x256x256.Idx) (k : S8x9x256x256.Idx)
    (hk : ∀ a : Fin 4, (k a).val = win0_1.index t a * S1x9x256x256.size a + (y a).val) :
    (iblk m c 1 t : Vec Ideal S1x9x256x256 .f32) y = (V m c main_arg1 : S8x9x256x256.Idx → Elt Ideal .f32) k := by
  unfold iblk
  rw [View.read_apply]
  show V m c main_arg1 _ = V m c main_arg1 _
  refine congrArg (V m c main_arg1) (funext fun a => Fin.ext ?_)
  match a with
  | ⟨0, _⟩ => show win0_1.index t 0 * 1 + 1 * (y 0).val = (k 0).val; rw [hk 0]; show _ = win0_1.index t 0 * 1 + (y 0).val; omega
  | ⟨1, _⟩ => show win0_1.index t 1 * 9 + 1 * (y 1).val = (k 1).val; rw [hk 1]; show _ = win0_1.index t 1 * 9 + (y 1).val; omega
  | ⟨2, _⟩ => show win0_1.index t 2 * 256 + 1 * (y 2).val = (k 2).val; rw [hk 2]; show _ = win0_1.index t 2 * 256 + (y 2).val; omega
  | ⟨3, _⟩ => show win0_1.index t 3 * 256 + 1 * (y 3).val = (k 3).val; rw [hk 3]; show _ = win0_1.index t 3 * 256 + (y 3).val; omega

/-- WHAT POINT `t` WRITES BACK is block `t` of `conv` of the two argument arrays as the region finds them. -/
theorem flushed_eq (c : Dev nD) (t : Fin cfg0.N) :
    (dats m 0 c).flushed 2 t
      = ((cfg0.win 2).blk t).view.read (Elt Ideal) (conv (V m c main_arg0) (V m c main_arg1)) := by
  rw [Value.flushed2]
  obtain ⟨⟨f0, f1, f2, f3⟩, ⟨g0, g1, g2, g3⟩, ⟨b0, b1, b2, b3⟩⟩ := idx_facts t
  funext j
  obtain ⟨u, cc, h, w, rfl⟩ : ∃ (u : Fin 1) (cc : Fin 16) (h w : Fin 256), j = ix4 u cc h w := ⟨j 0, j 1, j 2, j 3, eq_ix4 j⟩
  have hu : u.val = 0 := by have := u.isLt; omega
  have hcc := cc.isLt
  show out0_2 (iblk m c 0 t) (iblk m c 1 t) (ix4 u cc h w)
    = conv (V m c main_arg0) (V m c main_arg1) (((cfg0.win 2).blk t).view.emb (ix4 u cc h w))
  refine (out_apply (iblk m c 0 t) (iblk m c 1 t) u cc h w).trans ?_
  refine Eq.trans ?_ (conv_of_coords (V m c main_arg0) (V m c main_arg1) _ ⟨win0_2.index t 0, b0⟩
    ⟨win0_2.index t 1 * 16 + cc.val, by omega⟩ h w ?_ ?_ ?_ ?_).symm
  · refine congrArg₂ (fun P A => conv9 P A h w) (funext fun h' => funext fun w' => ?_) (funext fun k => ?_)
    · refine iblk0_apply m c t _ _ (fun a => ?_)
      match a with
      | ⟨0, _⟩ => show win0_2.index t 0 = win0_0.index t 0 * 1 + 0; omega
      | ⟨1, _⟩ => show win0_2.index t 1 * 16 + cc.val = win0_0.index t 1 * 16 + cc.val; omega
      | ⟨2, _⟩ => show h'.val = win0_0.index t 2 * 256 + h'.val; omega
      | ⟨3, _⟩ => show w'.val = win0_0.index t 3 * 256 + w'.val; omega
    · refine iblk1_apply m c t _ _ (fun a => ?_)
      match a with
      | ⟨0, _⟩ => show win0_2.index t 0 = win0_1.index t 0 * 1 + 0; omega
      | ⟨1, _⟩ => show k.val = win0_1.index t 1 * 9 + k.val; omega
      | ⟨2, _⟩ => show h.val = win0_1.index t 2 * 256 + h.val; omega
      | ⟨3, _⟩ => show w.val = win0_1.index t 3 * 256 + w.val; omega
  · show win0_2.index t 0 * 1 + 1 * u.val = win0_2.index t 0; omega
  · show win0_2.index t 1 * 16 + 1 * cc.val = win0_2.index t 1 * 16 + cc.val; omega
  · show win0_2.index t 2 * 256 + 1 * h.val = h.val; omega
  · show win0_2.index t 3 * 256 + 1 * w.val = w.val; omega

/-- An index of the array is in point `t`'s block iff each coordinate is in the block's range on its axis. -/
theorem mem_blk (t : Fin cfg0.N) (i : S8x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v0).slice (win0_2.rect t)).set ↔ _
  rw [View.set_slice_whole, Rect.mem_set_unit]
  exact Iff.rfl

/-- The 32 blocks cover the result array: the index (n, c, h, w) is in the block of the point (n, c / 16). -/
theorem cover (i : S8x64x256x256.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE RESULT ARRAY after the run is `conv` of the two argument arrays as launched. -/
theorem final (c : Dev nD) :
    (dats m 0 c).arrAt 2 cfg0.N
      = conv (m ((c : Thread nD τ).loc main_arg0)) (m ((c : Thread nD τ).loc main_arg1)) :=
  (dats m 0 c).arrAt_eq_of_cover 2 (conv (V m c main_arg0) (V m c main_arg1)) (fun t _ => flushed_eq m c t) cover

/-- The run, read: every weakly fair execution terminates with the result array at `conv` of the arguments and the
    arguments unchanged. -/
theorem run : θ_run defs (onTc (τ := τ) (main (F := Ideal))) ⟨m, fun _ => 0, ρ⟩ fun r => ∀ c : Dev nD,
      r.2.mem ((c : Thread nD τ).loc main_v0) = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.RefValue.lean ====
/-
  The reference's result, element by element.

  The reference pads the feature array with a border of zeros one entry wide along the rows and the columns of every
  plane, and adds to the feature array, tap after tap in the order (0,0), (0,1), …, (2,2), the slice of the padded array
  that starts at (i, j) times the tap's plane of weights laid over the 64 channels. Read at the element (n, c, h, w):
  the padded array at (n, c, p, q) is the zero-padded plane of image n, channel c at (p, q) (`pad_read`; the padding
  value is the integer zero converted, the float zero), a slice starting at (i, j) reads it at (h + i, w + j)
  (`feat00` … `feat22`), and tap k's weights — a plane cut out of the weights, reshaped, given back a unit channel axis and
  laid over the channels — read the weights at (n, k, h, w) (`wt0` … `wt8`). So the result at (n, c, h, w) is `conv9` of
  that plane and of those nine weights (`ref_apply`).
-/
import proofs.«159849_j16269336117256_2_alg».proof.Proof.Gen.ReferenceIdeal.Read
import proofs.«159849_j16269336117256_2_alg».proof.Proof.Spec
import Idealize.ShloMosaic.Lib.KernelVsHost
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.TcCoe
open Idealize.ShloMosaic.ValueIdx Cert.Fac

/-- THE PADDED ARRAY at an index whose coordinates are (n, c, p, q): the zero-padded plane of image n, channel c, at (p, q). -/
theorem pad_read (x0 : (⟨S8x64x256x256, .f32⟩ : BufTy).Contents (Elt Ideal)) (j : S8x64x258x258.Idx) (n : Fin 8) (c : Fin 64) (p q : Nat)
    (h0 : (j 0).val = n.val) (h1 : (j 1).val = c.val) (h2 : (j 2).val = p) (h3 : (j 3).val = q) :
    val_main_v0 (F := Ideal) x0 j = padAt (fun h w => x0 (ix4 n c h w)) p q := by
  unfold val_main_v0 padAt
  by_cases hin : Inside p q
  · rw [dif_pos hin]
    obtain ⟨⟨a1, a2⟩, ⟨b1, b2⟩⟩ := hin
    refine pad_apply_of_inside _ _ _ x0 _ pads_S8x64x256x256_S8x64x258x258_000_000_110_110 h_S_ j
      (ix4 n c ⟨p - 1, by omega⟩ ⟨q - 1, by omega⟩) (fun a => ?_)
    match a with
    | ⟨0, _⟩ => show (j 0).val = 0 + n.val * (0 + 1); omega
    | ⟨1, _⟩ => show (j 1).val = 0 + c.val * (0 + 1); omega
    | ⟨2, _⟩ => show (j 2).val = 1 + (p - 1) * (0 + 1); omega
    | ⟨3, _⟩ => show (j 3).val = 1 + (q - 1) * (0 + 1); omega
  · rw [dif_neg hin]
    have hv : val_main_call0_v0 (F := Ideal) (Shape.Idx.first h_S_) = (0 : EReal) := sitofp_zero (φ := .f32)
    rcases not_and_or.mp hin with hp | hq
    · refine (pad_apply_of_not_inside _ _ _ x0 _ pads_S8x64x256x256_S8x64x258x258_000_000_110_110 h_S_ j 2 ?_).trans hv
      show ¬(1 ≤ (j 2).val ∧ ((j 2).val - 1) % (0 + 1) = 0 ∧ ((j 2).val - 1) / (0 + 1) < 256)
      omega
    · refine (pad_apply_of_not_inside _ _ _ x0 _ pads_S8x64x256x256_S8x64x258x258_000_000_110_110 h_S_ j 3 ?_).trans hv
      show ¬(1 ≤ (j 3).val ∧ ((j 3).val - 1) % (0 + 1) = 0 ∧ ((j 3).val - 1) / (0 + 1) < 256)
      omega

/-! ## The nine slices of the padded array -/

section Slices
variable (x0 : (⟨S8x64x256x256, .f32⟩ : BufTy).Contents (Elt Ideal)) (n : Fin 8) (c : Fin 64) (h w : Fin 256)

theorem feat00 : val_main_v1 (F := Ideal) x0 (ix4 n c h w) = padAt (fun h w => x0 (ix4 n c h w)) (h.val + 0) (w.val + 0) := by
  rw [val_main_v1_apply]; exact pad_read x0 _ n c _ _ rfl rfl rfl rfl
theorem feat01 : val_main_v8 (F := Ideal) x0 (ix4 n c h w) = padAt (fun h w => x0 (ix4 n c h w)) (h.val + 0) (w.val + 1) := by
  rw [val_main_v8_apply]; exact pad_read x0 _ n c _ _ rfl rfl rfl (Nat.add_comm 1 w.val)
theorem feat02 : val_main_v15 (F := Ideal) x0 (ix4 n c h w) = padAt (fun h w => x0 (ix4 n c h w)) (h.val + 0) (w.val + 2) := by
  rw [val_main_v15_apply]; exact pad_read x0 _ n c _ _ rfl rfl rfl (Nat.add_comm 2 w.val)
theorem feat10 : val_main_v22 (F := Ideal) x0 (ix4 n c h w) = padAt (fun h w => x0 (ix4 n c h w)) (h.val + 1) (w.val + 0) := by
  rw [val_main_v22_apply]; exact pad_read x0 _ n c _ _ rfl rfl (Nat.add_comm 1 h.val) rfl
theorem feat11 : val_main_v29 (F := Ideal) x0 (ix4 n c h w) = padAt (fun h w => x0 (ix4 n c h w)) (h.val + 1) (w.val + 1) := by
  rw [val_main_v29_apply]; exact pad_read x0 _ n c _ _ rfl rfl (Nat.add_comm 1 h.val) (Nat.add_comm 1 w.val)
theorem feat12 : val_main_v36 (F := Ideal) x0 (ix4 n c h w) = padAt (fun h w => x0 (ix4 n c h w)) (h.val + 1) (w.val + 2) := by
  rw [val_main_v36_apply]; exact pad_read x0 _ n c _ _ rfl rfl (Nat.add_comm 1 h.val) (Nat.add_comm 2 w.val)
theorem feat20 : val_main_v43 (F := Ideal) x0 (ix4 n c h w) = padAt (fun h w => x0 (ix4 n c h w)) (h.val + 2) (w.val + 0) := by
  rw [val_main_v43_apply]; exact pad_read x0 _ n c _ _ rfl rfl (Nat.add_comm 2 h.val) rfl
theorem feat21 : val_main_v50 (F := Ideal) x0 (ix4 n c h w) = padAt (fun h w => x0 (ix4 n c h w)) (h.val + 2) (w.val + 1) := by
  rw [val_main_v50_apply]; exact pad_read x0 _ n c _ _ rfl rfl (Nat.add_comm 2 h.val) (Nat.add_comm 1 w.val)
theorem feat22 : val_main_v57 (F := Ideal) x0 (ix4 n c h w) = padAt (fun h w => x0 (ix4 n c h w)) (h.val + 2) (w.val + 2) := by
  rw [val_main_v57_apply]; exact pad_read x0 _ n c _ _ rfl rfl (Nat.add_comm 2 h.val) (Nat.add_comm 2 w.val)

end Slices

/-! ## The nine planes of weights, laid over the channels -/

/-- The weights at an index whose coordinates are (n, k, h, w). -/
theorem at_idx (x1 : (⟨S8x9x256x256, .f32⟩ : BufTy).Contents (Elt Ideal)) (j : S8x9x256x256.Idx) (n : Fin 8) (k : Fin 9) (h w : Fin 256)
    (h0 : (j 0).val = n.val) (h1 : (j 1).val = k.val) (h2 : (j 2).val = h.val) (h3 : (j 3).val = w.val) :
    x1 j = x1 (ix4 n k h w) :=
  congrArg x1 (funext fun a => Fin.ext (match a with | ⟨0, _⟩ => h0 | ⟨1, _⟩ => h1 | ⟨2, _⟩ => h2 | ⟨3, _⟩ => h3))

/-- The row-major position of (n, h, w) in an (8, 256, 256) array, split back into its coordinates. -/
theorem plane_pos (n : Fin 8) (h w : Fin 256) :
    ((n.val * 256 + h.val) * 256 + w.val) / 65536 = n.val ∧ ((n.val * 256 + h.val) * 256 + w.val) / 256 % 256 = h.val
      ∧ ((n.val * 256 + h.val) * 256 + w.val) % 256 = w.val := by
  have := n.isLt; have := h.isLt; have := w.isLt; omega

section Weights
variable (x1 : (⟨S8x9x256x256, .f32⟩ : BufTy).Contents (Elt Ideal)) (n : Fin 8) (c : Fin 64) (h w : Fin 256)

theorem wt0 : val_main_v5 (F := Ideal) x1 (ix4 n c h w) = x1 (ix4 n 0 h w) := by
  obtain ⟨e0, e2, e3⟩ := plane_pos n h w
  rw [val_main_v5_apply, val_main_v4_apply, val_main_v3_apply, val_main_v2_apply]
  exact at_idx x1 _ n 0 h w e0 rfl e2 e3
theorem wt1 : val_main_v12 (F := Ideal) x1 (ix4 n c h w) = x1 (ix4 n 1 h w) := by
  obtain ⟨e0, e2, e3⟩ := plane_pos n h w
  rw [val_main_v12_apply, val_main_v11_apply, val_main_v10_apply, val_main_v9_apply]
  exact at_idx x1 _ n 1 h w e0 rfl e2 e3
theorem wt2 : val_main_v19 (F := Ideal) x1 (ix4 n c h w) = x1 (ix4 n 2 h w) := by
  obtain ⟨e0, e2, e3⟩ := plane_pos n h w
  rw [val_main_v19_apply, val_main_v18_apply, val_main_v17_apply, val_main_v16_apply]
  exact at_idx x1 _ n 2 h w e0 rfl e2 e3
theorem wt3 : val_main_v26 (F := Ideal) x1 (ix4 n c h w) = x1 (ix4 n 3 h w) := by
  obtain ⟨e0, e2, e3⟩ := plane_pos n h w
  rw [val_main_v26_apply, val_main_v25_apply, val_main_v24_apply, val_main_v23_apply]
  exact at_idx x1 _ n 3 h w e0 rfl e2 e3
theorem wt4 : val_main_v33 (F := Ideal) x1 (ix4 n c h w) = x1 (ix4 n 4 h w) := by
  obtain ⟨e0, e2, e3⟩ := plane_pos n h w
  rw [val_main_v33_apply, val_main_v32_apply, val_main_v31_apply, val_main_v30_apply]
  exact at_idx x1 _ n 4 h w e0 rfl e2 e3
theorem wt5 : val_main_v40 (F := Ideal) x1 (ix4 n c h w) = x1 (ix4 n 5 h w) := by
  obtain ⟨e0, e2, e3⟩ := plane_pos n h w
  rw [val_main_v40_apply, val_main_v39_apply, val_main_v38_apply, val_main_v37_apply]
  exact at_idx x1 _ n 5 h w e0 rfl e2 e3
theorem wt6 : val_main_v47 (F := Ideal) x1 (ix4 n c h w) = x1 (ix4 n 6 h w) := by
  obtain ⟨e0, e2, e3⟩ := plane_pos n h w
  rw [val_main_v47_apply, val_main_v46_apply, val_main_v45_apply, val_main_v44_apply]
  exact at_idx x1 _ n 6 h w e0 rfl e2 e3
theorem wt7 : val_main_v54 (F := Ideal) x1 (ix4 n c h w) = x1 (ix4 n 7 h w) := by
  obtain ⟨e0, e2, e3⟩ := plane_pos n h w
  rw [val_main_v54_apply, val_main_v53_apply, val_main_v52_apply, val_main_v51_apply]
  exact at_idx x1 _ n 7 h w e0 rfl e2 e3
theorem wt8 : val_main_v61 (F := Ideal) x1 (ix4 n c h w) = x1 (ix4 n 8 h w) := by
  obtain ⟨e0, e2, e3⟩ := plane_pos n h w
  rw [val_main_v61_apply, val_main_v60_apply, val_main_v59_apply, val_main_v58_apply]
  exact at_idx x1 _ n 8 h w e0 rfl e2 e3

end Weights

/-! ## The result -/

/-- THE REFERENCE'S RESULT at (n, c, h, w): the residual-plus-nine-taps function of the plane of image n, channel c and of
    the nine weights of image n at the pixel (h, w). -/
theorem ref_apply (x0 : (⟨S8x64x256x256, .f32⟩ : BufTy).Contents (Elt Ideal)) (x1 : (⟨S8x9x256x256, .f32⟩ : BufTy).Contents (Elt Ideal))
    (n : Fin 8) (c : Fin 64) (h w : Fin 256) :
    val_main_v63 (F := Ideal) x0 x1 (ix4 n c h w)
      = conv9 (fun h w => x0 (ix4 n c h w)) (fun k => x1 (ix4 n k h w)) h w := by
  rw [val_main_v63_apply, val_main_v62_apply, val_main_v56_apply, val_main_v55_apply, val_main_v49_apply, val_main_v48_apply,
    val_main_v42_apply, val_main_v41_apply, val_main_v35_apply, val_main_v34_apply, val_main_v28_apply, val_main_v27_apply,
    val_main_v21_apply, val_main_v20_apply, val_main_v14_apply, val_main_v13_apply, val_main_v7_apply, val_main_v6_apply,
    feat00, feat01, feat02, feat10, feat11, feat12, feat20, feat21, feat22, wt0, wt1, wt2, wt3, wt4, wt5, wt6, wt7, wt8]
  rfl

/-- The reference's result array is `conv` of its two arguments. -/
theorem ref_eq (x0 : (⟨S8x64x256x256, .f32⟩ : BufTy).Contents (Elt Ideal)) (x1 : (⟨S8x9x256x256, .f32⟩ : BufTy).Contents (Elt Ideal)) :
    val_main_v63 (F := Ideal) x0 x1 = conv x0 x1 := by
  funext i
  obtain ⟨n, c, h, w, rfl⟩ : ∃ (n : Fin 8) (c : Fin 64) (h w : Fin 256), i = ix4 n c h w := ⟨i 0, i 1, i 2, i 3, eq_ix4 i⟩
  rw [ref_apply]
  exact (conv_of_coords x0 x1 _ n c h w rfl rfl rfl rfl).symm

end Cert.ReferenceIdeal.Hand

end
-- ==== Proof.lean ====
/-
  A per-pixel 3 × 3 convolution with a residual — out[n, c, h, w] = x[n, c, h, w] + ∑_{i, j < 3} pad(x)[n, c, h + i, w + j] ·
  a[n, 3 i + j, h, w], `pad` a border of zeros one entry wide around every plane — computed two ways and shown equal on the
  extended reals, element by element.

  The kernel holds a (16, 256, 256) block of `x` and the nine planes of weights of its image; it brings each neighbour
  under its pixel by rotating the block along the rows and the columns, and cancels what a rotation brings around the
  end by a 0/1 edge mask multiplied into the WEIGHTS. The reference pads `x` with zeros and multiplies slices of the
  padded array by the weights. Both add the nine taps to the residual in the same order, so the two results agree as
  soon as each tap does, and a tap does by one law: 0 · y = y · 0 = 0 and y · 1 = y for every extended real y (Spec.lean
  `tap_eq`) — no finiteness of the inputs is used. The modules: Spec.lean (the function `conv` and the law), KernelOps.lean and
  KernelBlock.lean (the body's block, element by element), KernelArray.lean (the 32 blocks make the array), RefValue.lean
  (the reference's result, element by element); here, the five claims.
-/
import proofs.«159849_j16269336117256_2_alg».proof.Defs
import proofs.«159849_j16269336117256_2_alg».proof.Proof.Gen.Kernel
import proofs.«159849_j16269336117256_2_alg».proof.Proof.Gen.Kernel.Skeleton
import proofs.«159849_j16269336117256_2_alg».proof.Proof.Gen.Kernel.Launch
import proofs.«159849_j16269336117256_2_alg».proof.Proof.Gen.Kernel.Points
import proofs.«159849_j16269336117256_2_alg».proof.Proof.Gen.Kernel.Frame
import proofs.«159849_j16269336117256_2_alg».proof.Proof.Gen.KernelIdeal
import proofs.«159849_j16269336117256_2_alg».proof.Proof.Gen.KernelIdeal.Skeleton
import proofs.«159849_j16269336117256_2_alg».proof.Proof.Gen.KernelIdeal.Launch
import proofs.«159849_j16269336117256_2_alg».proof.Proof.Gen.KernelIdeal.Points
import proofs.«159849_j16269336117256_2_alg».proof.Proof.Gen.KernelIdeal.Frame
import proofs.«159849_j16269336117256_2_alg».proof.Proof.Gen.ReferenceIdeal
import proofs.«159849_j16269336117256_2_alg».proof.Proof.Gen.Pre_finite_inputs
import proofs.«159849_j16269336117256_2_alg».proof.Proof.Gen.KernelIdeal.Value
import proofs.«159849_j16269336117256_2_alg».proof.Proof.Gen.ReferenceIdeal.Run
import proofs.«159849_j16269336117256_2_alg».proof.Proof.Gen.ReferenceIdeal.Read
import proofs.«159849_j16269336117256_2_alg».proof.Proof.KernelArray
import proofs.«159849_j16269336117256_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its two arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the exact values rewrote none of its operations. -/
theorem preserves : Cert.preserves_Kernel_KernelIdeal := trivial

/-- From memories that agree on the two arguments, the kernel's result array ends at `conv` of them (KernelArray.lean)
    and so does the reference's (RefValue.lean). -/
theorem algebraic : Cert.algebraic_KernelIdeal_ReferenceIdeal := by
  intro m ρ m' ρ' _ hagree
  refine ⟨fun c => Cert.Fac.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.Hand.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
